-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S64x4096 : Shape := ⟨2, ![64, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S4x4096x4096 .f32) (main_arg1 : FVec F S64x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S4x4096x4096 : Shape := ⟨3, ![4, 4096, 4096]⟩
abbrev S64x4096 : Shape := ⟨2, ![64, 4096]⟩
abbrev S4x64x4096 : Shape := ⟨3, ![4, 64, 4096]⟩
abbrev S4x4096x64 : Shape := ⟨3, ![4, 4096, 64]⟩
abbrev S4x256x4096 : Shape := ⟨3, ![4, 256, 4096]⟩
abbrev S4x64x256 : Shape := ⟨3, ![4, 64, 256]⟩
abbrev S1x256x4096 : Shape := ⟨3, ![1, 256, 4096]⟩
abbrev S256x4096 : Shape := ⟨2, ![256, 4096]⟩
abbrev S64x256 : Shape := ⟨2, ![64, 256]⟩
abbrev S256 : Shape := ⟨1, ![256]⟩
abbrev S1x256 : Shape := ⟨2, ![1, 256]⟩
abbrev S1x64x256 : Shape := ⟨3, ![1, 64, 256]⟩

abbrev nBuf : Space → Nat
  | .hbm => 4
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S4x64x4096, .f32⟩
  | .hbm, ⟨3, _⟩ => ⟨S4x4096x64, .f32⟩
  | .local _ .vmem, ⟨0, _⟩ => ⟨S4x256x4096, .f32⟩
  | .local _ .vmem, ⟨1, _⟩ => ⟨S4x256x4096, .f32⟩
  | .local _ .vmem, ⟨2, _⟩ => ⟨S64x4096, .f32⟩
  | .local _ .vmem, ⟨3, _⟩ => ⟨S4x64x256, .f32⟩
  | .local _ .vmem, ⟨4, _⟩ => ⟨S4x64x256, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4x64x4096_S4x4096x64_0_2_1 : S4x64x4096.Transposes [0, 2, 1] S4x4096x64
  inb_S64x4096_S64x4096_0_0 : ∀ a, (![0, 0] : Fin 2 → Nat) a + S64x4096.size a ≤ S64x4096.size a
  h_S64x4096 : 0 < S64x4096.numel
  inb_S4x256x4096_S1x256x4096_0_0_0 : ∀ a, (![0, 0, 0] : Fin 3 → Nat) a + S1x256x4096.size a ≤ S4x256x4096.size a
  h_S1x256x4096 : 0 < S1x256x4096.numel
  shapeCasts_S1x256x4096_S256x4096 : S1x256x4096.ShapeCasts S256x4096
  reduces_S64x256_S256 : S64x256.Reduces [0] S256
  shapeCasts_S256_S1x256 : S256.ShapeCasts S1x256
  broadcasts_S1x256_S64x256 : S1x256.Broadcasts S64x256
  inb_S4x64x256_S1x64x256_0_0_0 : ∀ a, (![0, 0, 0] : Fin 3 → Nat) a + S1x64x256.size a ≤ S4x64x256.size a
  h_S1x64x256 : 0 < S1x64x256.numel
  shapeCasts_S1x64x256_S64x256 : S1x64x256.ShapeCasts S64x256
  shapeCasts_S64x256_S1x64x256 : S64x256.ShapeCasts S1x64x256
  inb_S4x256x4096_S1x256x4096_1_0_0 : ∀ a, (![1, 0, 0] : Fin 3 → Nat) a + S1x256x4096.size a ≤ S4x256x4096.size a
  inb_S4x64x256_S1x64x256_1_0_0 : ∀ a, (![1, 0, 0] : Fin 3 → Nat) a + S1x64x256.size a ≤ S4x64x256.size a
  inb_S4x256x4096_S1x256x4096_2_0_0 : ∀ a, (![2, 0, 0] : Fin 3 → Nat) a + S1x256x4096.size a ≤ S4x256x4096.size a
  inb_S4x64x256_S1x64x256_2_0_0 : ∀ a, (![2, 0, 0] : Fin 3 → Nat) a + S1x64x256.size a ≤ S4x64x256.size a
  inb_S4x256x4096_S1x256x4096_3_0_0 : ∀ a, (![3, 0, 0] : Fin 3 → Nat) a + S1x256x4096.size a ≤ S4x256x4096.size a
  inb_S4x64x256_S1x64x256_3_0_0 : ∀ a, (![3, 0, 0] : Fin 3 → Nat) a + S1x64x256.size a ≤ S4x64x256.size a
  dot_S64x4096_S256x4096_S64x256_1_1_0_0_n_n_wf : DotDims.WF S64x4096 S256x4096 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x4096.size a ≤ S4x4096x4096.size a
  hwx0_0 : ∀ i : grid0.Coords, EltTy.bits .f32 = 32 ∨ (Rect.block (s := S4x4096x4096) S4x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x256.size a ≤ S4x64x4096.size a
  hwx0_2 : ∀ i : grid0.Coords, EltTy.bits .f32 = 32 ∨ (Rect.block (s := S4x64x4096) S4x64x256.size (cc0_transform_2 i) (hinb0_2 i)).WholeWords (EltTy.packing .f32)

variable [Facts₀]

def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf

abbrev win0_0 : Pipeline.Window sig grid0 :=
  Pipeline.Window.ofSpec (Memref.whole main_arg0) S4x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S4x64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S64x4096 : Shape := ⟨2, ![64, 4096]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S64x4096, .f32⟩
  | .hbm, ⟨2, _⟩ => ⟨S4x4096x64, .f32⟩
  | .hbm, ⟨3, _⟩ => ⟨S_, .f32⟩
  | .hbm, ⟨4, _⟩ => ⟨S4x4096, .f32⟩
  | .hbm, ⟨5, _⟩ => ⟨S_, .f32⟩
  | .hbm, ⟨6, _⟩ => ⟨S4x4096, .f32⟩
  | .hbm, ⟨7, _⟩ => ⟨S4x4096, .f32⟩
  | .hbm, ⟨8, _⟩ => ⟨S4x4096x1, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S4x4096x64, .f32⟩
  | .hbm, ⟨16, _⟩ => ⟨S4x4096x64, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S4x4096x64_S4x4096_d2 : S4x4096x64.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x64_0_1_2 : S4x4096x1.BroadcastsInDim S4x4096x64 (![0, 1, 2] : Fin 3 → Fin S4x4096x64.rank)
  dot_S4x4096x4096_S64x4096_S4x4096x64_2_1_01_0_n_n_wf : DotDims.WF S4x4096x4096 S64x4096 S4x4096x64 [2] [1] [0, 1] [0] [] []

variable [Facts₀]

def dot_S4x4096x4096_S64x4096_S4x4096x64_2_1_01_0_n_n : DotDims S4x4096x4096 S64x4096 S4x4096x64 where
  lhsContracting := [2]
  rhsContracting := [1]
  lhsNonContracting := [0, 1]
  rhsNonContracting := [0]
  lhsBatch := []
  rhsBatch := []
  wf := dot_S4x4096x4096_S64x4096_S4x4096x64_2_1_01_0_n_n_wf

class Facts : Prop extends Facts₀ where

variable [Facts]
-- ==== Proof.Spec.lean ====
/-
  The router's mathematics, free of any program: for a batch of token vectors `x[b, s, ·]` and a table of expert
  vectors `w[e, ·]`, the logit of token (b, s) for expert e is the inner product `Σ_k x[b, s, k] · w[e, k]`, and
  the routing probabilities of a token are the softmax of its 64 logits: with `M` the largest logit (folded
  from -∞), `exp (L e - M) / Σ_e' exp (L e' - M)`. Everything is read on the extended reals, where the sum, the
  product, the maximum and the exponential are total, so no input has to be excluded.

  `softmaxOf` is the softmax of one column of 64 extended reals; `prob` applies it to a token's logits;
  `routerProbs` lays the probabilities out token-major, [b, s, e], and `routerProbsT` expert-major, [b, e, s].
  The two layouts hold the same numbers: `routerProbsT_apply` / `routerProbs_apply` read both at coordinates.
-/
import Idealize.ShloMosaic.PureOps.Ideal
import Idealize.ShloMosaic.Lib.ValueIdx

noncomputable section

namespace Cert.Router

open Idealize.ShloMosaic Idealize.ShloMosaic.ValueIdx

/-- The token array's shape [batch, sequence, hidden], the expert table's [expert, hidden], and the two layouts of
    the result. -/
abbrev Tokens : Shape := ⟨3, ![4, 4096, 4096]⟩
abbrev Experts : Shape := ⟨2, ![64, 4096]⟩
abbrev Probs : Shape := ⟨3, ![4, 4096, 64]⟩
abbrev ProbsT : Shape := ⟨3, ![4, 64, 4096]⟩

/-- The value both programs start their running maximum from: the f32 word of -∞. -/
abbrev negInf : EReal := Ideal.ofBits .f32 0xFF800000#32

/-- The softmax of a column of 64 extended reals, shifted by the column's maximum. -/
def softmaxOf (L : Fin 64 → EReal) (e : Fin 64) : EReal :=
  Ideal.div (Ideal.exp (L e - (Finset.univ : Finset (Fin 64)).fold max negInf L))
    (∑ e' : Fin 64, Ideal.exp (L e' - (Finset.univ : Finset (Fin 64)).fold max negInf L))

/-- The logit of token (b, s) for expert e: the inner product over the hidden axis. -/
def logit (x : Tokens.Idx → EReal) (w : Experts.Idx → EReal) (b : Fin 4) (s : Fin 4096) (e : Fin 64) : EReal :=
  ∑ k : Fin 4096, x (ix3 b s k) * w (ix2 e k)

/-- The probability that token (b, s) is routed to expert e. -/
def prob (x : Tokens.Idx → EReal) (w : Experts.Idx → EReal) (b : Fin 4) (s : Fin 4096) (e : Fin 64) : EReal :=
  softmaxOf (logit x w b s) e

/-- The probabilities token-major: entry [b, s, e]. -/
def routerProbs (x : Tokens.Idx → EReal) (w : Experts.Idx → EReal) : Probs.Idx → EReal :=
  fun i => prob x w (i 0) (i 1) (i 2)

/-- The probabilities expert-major: entry [b, e, s]. -/
def routerProbsT (x : Tokens.Idx → EReal) (w : Experts.Idx → EReal) : ProbsT.Idx → EReal :=
  fun i => prob x w (i 0) (i 2) (i 1)

theorem routerProbs_apply (x : Tokens.Idx → EReal) (w : Experts.Idx → EReal) (b : Fin 4) (s : Fin 4096) (e : Fin 64) :
    routerProbs x w (ix3 b s e) = prob x w b s e := rfl

theorem routerProbsT_apply (x : Tokens.Idx → EReal) (w : Experts.Idx → EReal) (b : Fin 4) (e : Fin 64) (s : Fin 4096) :
    routerProbsT x w (ix3 b e s) = prob x w b s e := rfl

/-- Taking the maximum with the fold's own starting value again changes nothing: the fold is already above it. -/
theorem max_start_fold (L : Fin 64 → EReal) :
    max negInf ((Finset.univ : Finset (Fin 64)).fold max negInf L) = (Finset.univ : Finset (Fin 64)).fold max negInf L :=
  max_eq_right ((Finset.le_fold_max _).mpr (Or.inl le_rfl))

/-- A softmax depends on its column only: two columns equal entry by entry have the same softmax. -/
theorem softmaxOf_congr {L L' : Fin 64 → EReal} (h : ∀ e, L e = L' e) (e : Fin 64) : softmaxOf L e = softmaxOf L' e := by
  rw [show L = L' from funext h]

end Cert.Router

end
-- ==== Proof.RefIsSpec.lean ====
/-
  The reference program computes the router's probabilities, token-major.

  Read one operation at a time: the einsum's entry [b, s, e] is the inner product of token (b, s) with expert e
  (the logit); the maximum over the expert axis, folded from -∞ and then once more compared with -∞, is the
  largest logit of the token; broadcasting it back along the expert axis, subtracting and exponentiating gives the
  shifted weights; their sum over the expert axis, from the initial value 0, is the normalizer; the quotient is
  the softmax. Each step is one equation at explicit coordinates (b, s, e).
-/
import proofs.«100818_g54193897341570_cont_sun_m_1179_19_alg».proof.Proof.Gen.ReferenceIdeal.Read
import proofs.«100818_g54193897341570_cont_sun_m_1179_19_alg».proof.Proof.Spec

noncomputable section

namespace Cert.Router.Reference

open Cert.ReferenceIdeal Cert.ReferenceIdeal.Gen Cert.ReferenceIdeal.Read Cert.Router
open Idealize.ShloMosaic Idealize.ShloMosaic.ValueIdx

variable (x0 : (⟨S4x4096x4096, .f32⟩ : BufTy).Contents (Elt Ideal)) (x1 : (⟨S64x4096, .f32⟩ : BufTy).Contents (Elt Ideal))

/-- The index over token (b, s) whose expert coordinate is k. -/
theorem lift_expertAxis (h : S4x4096x64.Reduces [2] S4x4096) (b : Fin 4) (s : Fin 4096) (k : Fin 64) :
    h.lift (ix2 b s) k = ix3 b s k :=
  funext fun a => Fin.ext (by match a with | ⟨0, _⟩ => rfl | ⟨1, _⟩ => rfl | ⟨2, _⟩ => rfl)

/-- The einsum's entry is the logit. -/
theorem dot_apply (b : Fin 4) (s : Fin 4096) (e : Fin 64) :
    val_main_v0 (F := Ideal) x0 x1 (ix3 b s e) = logit x0 x1 b s e := by
  rw [val_main_v0_apply]
  unfold logit
  refine Finset.sum_congr rfl fun k _ => ?_
  have el : lidx_main_v0 (ix3 b s e) k = ix3 b s k :=
    funext fun a => Fin.ext (by match a with | ⟨0, _⟩ => rfl | ⟨1, _⟩ => rfl | ⟨2, _⟩ => rfl)
  have er : ridx_main_v0 (ix3 b s e) k = ix2 e k :=
    funext fun a => Fin.ext (by match a with | ⟨0, _⟩ => rfl | ⟨1, _⟩ => rfl)
  rw [el, er]

/-- The row maximum, compared once more with -∞, is the token's largest logit. -/
theorem peak_apply (b : Fin 4) (s : Fin 4096) :
    val_main_v3 (F := Ideal) x0 x1 (ix2 b s) = (Finset.univ : Finset (Fin 64)).fold max negInf (logit x0 x1 b s) := by
  have h : S4x4096x64.Reduces [2] S4x4096 := by decide
  have hmax : val_main_v1 (F := Ideal) x0 x1 (ix2 b s)
      = (Finset.univ : Finset (Fin 64)).fold max negInf (logit x0 x1 b s) := by
    unfold val_main_v1
    refine (Host.reduce_eq_fold_single FloatOps.maximumf _ _ reducesTo_S4x4096x64_S4x4096_d2 h h_S_ (ix2 b s)).trans ?_
    show (Finset.univ : Finset (Fin 64)).fold max negInf
      (fun k : Fin 64 => val_main_v0 (F := Ideal) x0 x1 (h.lift (ix2 b s) k)) = _
    exact Finset.fold_congr (fun k _ => by rw [lift_expertAxis h b s k, dot_apply])
  rw [val_main_v3_apply, hmax]
  exact max_start_fold _

/-- Broadcast back along the expert axis, it is the same number at every expert. -/
theorem shift_apply (b : Fin 4) (s : Fin 4096) (e : Fin 64) :
    val_main_v5 (F := Ideal) x0 x1 (ix3 b s e) = (Finset.univ : Finset (Fin 64)).fold max negInf (logit x0 x1 b s) := by
  rw [val_main_v5_apply, val_main_v4_apply]
  have e1 : idx_main_v4 (idx_main_v5 (ix3 b s e)) = ix2 b s :=
    funext fun a => Fin.ext (by match a with | ⟨0, _⟩ => rfl | ⟨1, _⟩ => rfl)
  rw [e1, peak_apply]

/-- The shifted weight of expert e. -/
theorem weight_apply (b : Fin 4) (s : Fin 4096) (e : Fin 64) :
    val_main_v7 (F := Ideal) x0 x1 (ix3 b s e)
      = Ideal.exp (logit x0 x1 b s e - (Finset.univ : Finset (Fin 64)).fold max negInf (logit x0 x1 b s)) := by
  rw [val_main_v7_apply, val_main_v6_apply, dot_apply, shift_apply]
  rfl

/-- The normalizer: the weights summed over the experts, from the initial value 0. -/
theorem total_apply (b : Fin 4) (s : Fin 4096) (e : Fin 64) :
    val_main_v10 (F := Ideal) x0 x1 (ix3 b s e)
      = ∑ e' : Fin 64, Ideal.exp (logit x0 x1 b s e' - (Finset.univ : Finset (Fin 64)).fold max negInf (logit x0 x1 b s)) := by
  rw [val_main_v10_apply, val_main_v9_apply]
  have e1 : idx_main_v9 (idx_main_v10 (ix3 b s e)) = ix2 b s :=
    funext fun a => Fin.ext (by match a with | ⟨0, _⟩ => rfl | ⟨1, _⟩ => rfl)
  rw [e1, val_main_v8_apply, val_main_cst_1_apply]
  have e2 : ∀ k : Fin 64, idx_main_v8 (ix2 b s) k = ix3 b s k := fun k =>
    funext fun a => Fin.ext (by match a with | ⟨0, _⟩ => rfl | ⟨1, _⟩ => rfl | ⟨2, _⟩ => rfl)
  simp only [e2, weight_apply]
  show Ideal.ofBits .f32 0x00000000#32 + _ = _
  rw [Ideal.ofBits_zero_f32, zero_add]

/-- THE REFERENCE'S RESULT is the router's probabilities, token-major. -/
theorem result_eq : val_main_v11 (F := Ideal) x0 x1 = routerProbs x0 x1 := by
  funext i
  obtain ⟨b, s, e, rfl⟩ : ∃ (b : Fin 4) (s : Fin 4096) (e : Fin 64), i = ix3 b s e := ⟨i 0, i 1, i 2, eq_ix3 i⟩
  rw [routerProbs_apply, val_main_v11_apply, weight_apply, total_apply]
  rfl

end Cert.Router.Reference

end
-- ==== Proof.SlabValue.lean ====
/-
  One slab of the kernel body: the softmax of 256 tokens' logits against the resident expert table.

  The body handles the four batch slabs of a block one after the other with the same arithmetic: the [1, 256, 4096]
  slab of tokens loses its unit axis, the expert table [64, 4096] is multiplied with it on the matrix unit into a
  zero accumulator (contracting the hidden axis of both: logits [64, 256], expert-major), the column maximum and the
  column sum run down the expert axis and are broadcast back over it, and the quotient regains the unit axis. The
  program's text has this arithmetic four times, once per slab (one copy in two parts); `slabProbs` is the one
  function all four are.

  Read at (e, s): the logit is the inner product of expert e with token s; the column maximum is the fold of `max`
  from -∞ over the 64 experts; the column sum is the plain sum over them; so the entry is the softmax of the token's
  column of logits at e.
-/
import proofs.«100818_g54193897341570_cont_sun_m_1179_19_alg».proof.Proof.Gen.KernelIdeal.Skeleton
import proofs.«100818_g54193897341570_cont_sun_m_1179_19_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Router.Slab

open Cert.KernelIdeal Cert.KernelIdeal.Gen Cert.Router
open Idealize.ShloMosaic Idealize.ShloMosaic.ValueIdx

/-! ## The slab's arithmetic, named -/

/-- The logits of a slab, expert-major: the expert table times the slab's tokens, hidden axis contracted. -/
def slabLogits (w : FVec Ideal S64x4096 .f32) (xb : FVec Ideal S1x256x4096 .f32) : FVec Ideal S64x256 .f32 :=
  matmul dot_S64x4096_S256x4096_S64x256_1_1_0_0_n_n none w (shapeCast S256x4096 xb shapeCasts_S1x256x4096_S256x4096)
    (constant (F := Ideal) S64x256 .f32 0x00000000#32)

/-- Each column's maximum over the experts, written back over the whole column. -/
def colMax (v : FVec Ideal S64x256 .f32) : FVec Ideal S64x256 .f32 :=
  broadcastTo S64x256
    (shapeCast S1x256 (multiReduction (F := Ideal) .maximumf [0] S256 v 0xFF800000#32 reduces_S64x256_S256 (.inl rfl) rfl)
      shapeCasts_S256_S1x256) broadcasts_S1x256_S64x256

/-- Each column's sum over the experts, written back over the whole column. -/
def colSum (v : FVec Ideal S64x256 .f32) : FVec Ideal S64x256 .f32 :=
  broadcastTo S64x256
    (shapeCast S1x256 (multiReduction (F := Ideal) .add [0] S256 v 0x00000000#32 reduces_S64x256_S256 (.inl rfl) rfl)
      shapeCasts_S256_S1x256) broadcasts_S1x256_S64x256

/-- The softmax down the expert axis of an expert-major [64, 256] array. -/
def colSoftmax (L : FVec Ideal S64x256 .f32) : FVec Ideal S64x256 .f32 :=
  divf (exp (subf L (colMax L))) (colSum (exp (subf L (colMax L))))

/-- What the body stores for one slab. -/
def slabProbs (w : FVec Ideal S64x4096 .f32) (xb : FVec Ideal S1x256x4096 .f32) : FVec Ideal S1x64x256 .f32 :=
  shapeCast S1x64x256 (colSoftmax (slabLogits w xb)) shapeCasts_S64x256_S1x64x256

/-! ## The four stored values are that function -/

theorem pay3_eq (w : Vec Ideal S64x4096 .f32) (xb : Vec Ideal S1x256x4096 .f32) : k0_pay3 (F := Ideal) w xb = slabProbs w xb := rfl
theorem pay4_eq (w : Vec Ideal S64x4096 .f32) (xb : Vec Ideal S1x256x4096 .f32) : k0_pay4 (F := Ideal) w xb = slabProbs w xb := rfl
theorem pay2_eq (w : Vec Ideal S64x4096 .f32) (xb : Vec Ideal S1x256x4096 .f32) : k0_pay2 (F := Ideal) w xb = slabProbs w xb := rfl
theorem pay1_eq (w : Vec Ideal S64x4096 .f32) (xb : Vec Ideal S1x256x4096 .f32) :
    k0_pay1 (F := Ideal) w (k0_pay5 xb) (constant (F := Ideal) S64x256 .f32 0x00000000#32) = slabProbs w xb := rfl

/-! ## Read at an index -/

/-- The operand indices of the matrix product at output (e, s) and contraction index q: (e, q) and (s, q). -/
theorem lhs_0 (i : S64x256.Idx) (q : dot_S64x4096_S256x4096_S64x256_1_1_0_0_n_n.contr.Idx) :
    (dot_S64x4096_S256x4096_S64x256_1_1_0_0_n_n.lhsIdx i q 0).val = (i 0).val := by
  unfold DotDims.lhsIdx
  rw [dif_neg (show ¬(0 : Fin S64x4096.rank) ∈ dot_S64x4096_S256x4096_S64x256_1_1_0_0_n_n.lhsBatch by decide),
    dif_pos (show (0 : Fin S64x4096.rank) ∈ dot_S64x4096_S256x4096_S64x256_1_1_0_0_n_n.lhsNonContracting by decide)]
  rfl
theorem lhs_1 (i : S64x256.Idx) (q : dot_S64x4096_S256x4096_S64x256_1_1_0_0_n_n.contr.Idx) :
    (dot_S64x4096_S256x4096_S64x256_1_1_0_0_n_n.lhsIdx i q 1).val = (q ⟨0, by decide⟩).val :=
  dot_S64x4096_S256x4096_S64x256_1_1_0_0_n_n.lhsIdx_val_of_single rfl i q
theorem rhs_0 (i : S64x256.Idx) (q : dot_S64x4096_S256x4096_S64x256_1_1_0_0_n_n.contr.Idx) :
    (dot_S64x4096_S256x4096_S64x256_1_1_0_0_n_n.rhsIdx i q 0).val = (i 1).val := by
  unfold DotDims.rhsIdx
  rw [dif_neg (show ¬(0 : Fin S256x4096.rank) ∈ dot_S64x4096_S256x4096_S64x256_1_1_0_0_n_n.rhsBatch by decide),
    dif_pos (show (0 : Fin S256x4096.rank) ∈ dot_S64x4096_S256x4096_S64x256_1_1_0_0_n_n.rhsNonContracting by decide)]
  rfl
theorem rhs_1 (i : S64x256.Idx) (q : dot_S64x4096_S256x4096_S64x256_1_1_0_0_n_n.contr.Idx) :
    (dot_S64x4096_S256x4096_S64x256_1_1_0_0_n_n.rhsIdx i q 1).val = (q ⟨0, by decide⟩).val :=
  dot_S64x4096_S256x4096_S64x256_1_1_0_0_n_n.rhsIdx_val_of_single rfl i q

/-- The logit of expert e for the slab's token s: their inner product over the hidden axis. -/
theorem slabLogits_apply (w : FVec Ideal S64x4096 .f32) (xb : FVec Ideal S1x256x4096 .f32) (e : Fin 64) (s : Fin 256) :
    slabLogits w xb (ix2 e s) = ∑ k : Fin 4096, w (ix2 e k) * xb (ix3 (0 : Fin 1) s k) := by
  unfold slabLogits
  refine (Ideal.matmul_constant_zero_apply dot_S64x4096_S256x4096_S64x256_1_1_0_0_n_n none w _ (ix2 e s)).trans ?_
  rw [← Equiv.sum_comp (contrEquiv1 dot_S64x4096_S256x4096_S64x256_1_1_0_0_n_n 4096 rfl rfl).symm]
  refine Finset.sum_congr rfl fun k _ => ?_
  have hk := contrEquiv1_symm_val dot_S64x4096_S256x4096_S64x256_1_1_0_0_n_n 4096 rfl rfl k
  have el : dot_S64x4096_S256x4096_S64x256_1_1_0_0_n_n.lhsIdx (ix2 e s)
      ((contrEquiv1 dot_S64x4096_S256x4096_S64x256_1_1_0_0_n_n 4096 rfl rfl).symm k) = ix2 e k :=
    funext fun a => Fin.ext (by
      match a with
      | ⟨0, _⟩ => exact lhs_0 _ _
      | ⟨1, _⟩ => exact (lhs_1 _ _).trans hk)
  have er : dot_S64x4096_S256x4096_S64x256_1_1_0_0_n_n.rhsIdx (ix2 e s)
      ((contrEquiv1 dot_S64x4096_S256x4096_S64x256_1_1_0_0_n_n 4096 rfl rfl).symm k) = ix2 s k :=
    funext fun a => Fin.ext (by
      match a with
      | ⟨0, _⟩ => exact rhs_0 _ _
      | ⟨1, _⟩ => exact (rhs_1 _ _).trans hk)
  rw [el, er]
  exact congrArg (w (ix2 e k) * ·) (shapeCast_1ab_ab_apply xb _ s k)

/-- The index over column s whose expert coordinate is k. -/
theorem lift_expertAxis (h : S64x256.Reduces [0] S256) (s : Fin 256) (k : Fin 64) : h.lift (ix1 s) k = ix2 k s :=
  funext fun a => Fin.ext (by match a with | ⟨0, _⟩ => rfl | ⟨1, _⟩ => rfl)

/-- A column's maximum: the fold of `max` from -∞ over the column's 64 entries, the same at every row. -/
theorem colMax_apply (v : FVec Ideal S64x256 .f32) (e : Fin 64) (s : Fin 256) :
    colMax v (ix2 e s) = (Finset.univ : Finset (Fin 64)).fold max negInf (fun e' => v (ix2 e' s)) := by
  unfold colMax
  refine (broadcastTo_1b_ab_apply _ _ e s).trans ?_
  refine (shapeCast_a_1a_apply _ _ (0 : Fin 1) s).trans ?_
  refine (Ideal.multiReduction_maximumf_single v _ reduces_S64x256_S256 (.inl rfl) rfl (ix1 s)).trans ?_
  show (Finset.univ : Finset (Fin 64)).fold max negInf (fun k : Fin 64 => v (reduces_S64x256_S256.lift (ix1 s) k)) = _
  exact Finset.fold_congr (fun k _ => congrArg v (lift_expertAxis _ s k))

/-- A column's sum: the sum of the column's 64 entries, the same at every row. -/
theorem colSum_apply (v : FVec Ideal S64x256 .f32) (e : Fin 64) (s : Fin 256) :
    colSum v (ix2 e s) = ∑ e' : Fin 64, v (ix2 e' s) := by
  unfold colSum
  refine (broadcastTo_1b_ab_apply _ _ e s).trans ?_
  refine (shapeCast_a_1a_apply _ _ (0 : Fin 1) s).trans ?_
  refine (Ideal.multiReduction_add_single v _ reduces_S64x256_S256 (.inl rfl) rfl (ix1 s)).trans ?_
  show ∑ k : Fin 64, v (reduces_S64x256_S256.lift (ix1 s) k) = _
  exact Finset.sum_congr rfl (fun k _ => congrArg v (lift_expertAxis _ s k))

/-- The column softmax at (e, s) is the softmax of column s at e. -/
theorem colSoftmax_apply (L : FVec Ideal S64x256 .f32) (e : Fin 64) (s : Fin 256) :
    colSoftmax L (ix2 e s) = softmaxOf (fun e' => L (ix2 e' s)) e := by
  unfold colSoftmax softmaxOf
  show Ideal.div (Ideal.exp (L (ix2 e s) - colMax L (ix2 e s))) (colSum (exp (subf L (colMax L))) (ix2 e s)) = _
  rw [colSum_apply, colMax_apply]
  refine congrArg (Ideal.div _) (Finset.sum_congr rfl fun e' _ => ?_)
  show Ideal.exp (L (ix2 e' s) - colMax L (ix2 e' s)) = _
  rw [colMax_apply]

/-- WHAT THE BODY STORES FOR A SLAB, at (e, s): the softmax, at e, of token s's logits against the 64 experts. -/
theorem slabProbs_apply (w : FVec Ideal S64x4096 .f32) (xb : FVec Ideal S1x256x4096 .f32) (u : Fin 1) (e : Fin 64) (s : Fin 256) :
    slabProbs w xb (ix3 u e s)
      = softmaxOf (fun e' => ∑ k : Fin 4096, w (ix2 e' k) * xb (ix3 (0 : Fin 1) s k)) e := by
  unfold slabProbs
  refine (shapeCast_ab_1ab_apply _ _ u e s).trans ?_
  rw [colSoftmax_apply]
  exact softmaxOf_congr (fun e' => slabLogits_apply w xb e' s) e

end Cert.Router.Slab

end
-- ==== Proof.BlockValue.lean ====
/-
  One grid point of the kernel: a block of 4 × 256 tokens against the whole expert table.

  At a grid point the body holds a [4, 256, 4096] block of tokens (all four batch slabs of 256 consecutive sequence
  positions) and the [64, 4096] expert table, and writes a [4, 64, 256] block of probabilities, expert-major, with
  four stores: slab b of the output block is the slab softmax of slab b of the token block. So entry (b, e, s) of
  what the body leaves is the softmax, at e, of the logits of the block's token (b, s) — `blockEntry`. The four
  stores tile the output block, and each one's payload is that one function read through its rectangle, so the
  buffer after the body is that function (`out_eq`).
-/
import proofs.«100818_g54193897341570_cont_sun_m_1179_19_alg».proof.Proof.Gen.KernelIdeal.Frame
import proofs.«100818_g54193897341570_cont_sun_m_1179_19_alg».proof.Proof.SlabValue

noncomputable section

namespace Cert.Router.Block

open Cert.KernelIdeal Cert.KernelIdeal.Gen Cert.Router Cert.Router.Slab
open Idealize.ShloMosaic Idealize.ShloMosaic.ValueIdx

/-- Entry (b, e, s) of a point's output: the softmax at e of the logits of the block's token (b, s). -/
def blockEntry (x0 : Vec Ideal S4x256x4096 .f32) (x1 : Vec Ideal S64x4096 .f32) (b : Fin 4) (e : Fin 64) (s : Fin 256) : EReal :=
  softmaxOf (fun e' => ∑ k : Fin 4096, x1 (ix2 e' k) * x0 (ix3 b s k)) e

/-- A point's whole output block. -/
def blockProbs (x0 : Vec Ideal S4x256x4096 .f32) (x1 : Vec Ideal S64x4096 .f32) : Vec Ideal S4x64x256 .f32 :=
  fun y => blockEntry x0 x1 (y 0) (y 1) (y 2)

/-- Read at an index whose coordinates are known. -/
theorem blockProbs_of_coords (x0 : Vec Ideal S4x256x4096 .f32) (x1 : Vec Ideal S64x4096 .f32) (y : S4x64x256.Idx)
    (b : Fin 4) (e : Fin 64) (s : Fin 256) (h0 : (y 0).val = b.val) (h1 : (y 1).val = e.val) (h2 : (y 2).val = s.val) :
    blockProbs x0 x1 y = blockEntry x0 x1 b e s := by
  obtain rfl : y = ix3 b e s :=
    funext fun a => Fin.ext (by match a with | ⟨0, _⟩ => exact h0 | ⟨1, _⟩ => exact h1 | ⟨2, _⟩ => exact h2)
  rfl

theorem zeros2 : (![0, 0] : Fin 2 → Nat) = fun _ => 0 := funext fun a => by fin_cases a <;> rfl

/-- Slab b: the slab softmax of the token block's slab b (loaded at offset (b, 0, 0)) is the point's output read through
    the store's rectangle at the same offset. -/
theorem slab_piece (x0 : Vec Ideal S4x256x4096 .f32) (x1 : Vec Ideal S64x4096 .f32) (b : Fin 4)
    (off : Fin 3 → Nat) (hoff : off = ![b.val, 0, 0])
    (inbL : ∀ a, off a + S1x256x4096.size a ≤ S4x256x4096.size a)
    (inbS : ∀ a, off a + S1x64x256.size a ≤ S4x64x256.size a) (y : S1x64x256.Idx) :
    slabProbs (View.ld x1 r0_0) (View.ld x0 (Rect.unit (s := S4x256x4096) off S1x256x4096.size inbL)) y
      = blockProbs x0 x1 ((Rect.unit (s := S4x64x256) off S1x64x256.size inbS).emb y) := by
  subst hoff
  obtain ⟨u, e, s, rfl⟩ : ∃ (u : Fin 1) (e : Fin 64) (s : Fin 256), y = ix3 u e s := ⟨y 0, y 1, y 2, eq_ix3 y⟩
  have hu : u.val = 0 := by omega
  refine Eq.trans ?_ (blockProbs_of_coords x0 x1 _ b e s ?_ ?_ ?_).symm
  · refine (slabProbs_apply (View.ld x1 r0_0) (View.ld x0 (Rect.unit (s := S4x256x4096) ![b.val, 0, 0] S1x256x4096.size inbL)) u e s).trans ?_
    rw [View.ld_unit_zero (S := S64x4096) zeros2 inb_S64x4096_S64x4096_0_0 x1]
    unfold blockEntry
    refine softmaxOf_congr (fun e' => Finset.sum_congr rfl fun k _ => congrArg (x1 (ix2 e' k) * ·) ?_) e
    exact congrArg x0 (funext fun a => Fin.ext (by
      match a with
      | ⟨0, _⟩ => show b.val + 1 * 0 = b.val; omega
      | ⟨1, _⟩ => show 0 + 1 * s.val = s.val; omega
      | ⟨2, _⟩ => show 0 + 1 * k.val = k.val; omega))
  · show b.val + 1 * u.val = b.val; omega
  · show 0 + 1 * e.val = e.val; omega
  · show 0 + 1 * s.val = s.val; omega

/-- WHAT THE BODY LEAVES in the output window's buffer: the block of probabilities of the point's tokens. -/
theorem out_eq (x0 : Vec Ideal S4x256x4096 .f32) (x1 : Vec Ideal S64x4096 .f32) :
    out0_2 (F := Ideal) x0 x1 = blockProbs x0 x1 := by
  funext y
  unfold out0_2
  refine View.canon_apply_of_pieces (blockProbs x0 x1) _ ?_ y (cover0_2 _ _ _ _ y)
  intro p hp x
  simp only [List.mem_cons, List.mem_nil_iff, or_false] at hp
  rcases hp with rfl | rfl | rfl | rfl
  · show k0_pay2 (F := Ideal) (View.ld x1 r0_0) (View.ld x0 r0_7) x = _
    rw [pay2_eq]
    exact slab_piece x0 x1 3 ![3, 0, 0] rfl inb_S4x256x4096_S1x256x4096_3_0_0 inb_S4x64x256_S1x64x256_3_0_0 x
  · show k0_pay1 (F := Ideal) (View.ld x1 r0_0) (k0_pay5 (View.ld x0 r0_5)) (constant (F := Ideal) S64x256 .f32 0x00000000#32) x = _
    rw [pay1_eq]
    exact slab_piece x0 x1 2 ![2, 0, 0] rfl inb_S4x256x4096_S1x256x4096_2_0_0 inb_S4x64x256_S1x64x256_2_0_0 x
  · show k0_pay4 (F := Ideal) (View.ld x1 r0_0) (View.ld x0 r0_3) x = _
    rw [pay4_eq]
    exact slab_piece x0 x1 1 ![1, 0, 0] rfl inb_S4x256x4096_S1x256x4096_1_0_0 inb_S4x64x256_S1x64x256_1_0_0 x
  · show k0_pay3 (F := Ideal) (View.ld x1 r0_0) (View.ld x0 r0_1) x = _
    rw [pay3_eq]
    exact slab_piece x0 x1 0 ![0, 0, 0] rfl inb_S4x256x4096_S1x256x4096_0_0_0 inb_S4x64x256_S1x64x256_0_0_0 x

end Cert.Router.Block

end
-- ==== Proof.ArrayValue.lean ====
/-
  From blocks to the array: after the pipeline's sixteen points the kernel's output array holds the router's
  probabilities, expert-major.

  Point t stages sequence positions 256 t … 256 t + 255 of all four batch slabs (block index (0, t, 0) of the token
  array, block size [4, 256, 4096]), the whole expert table (block index (0, 0)), and writes back block (0, 0, t) of the
  [4, 64, 4096] output (block size [4, 64, 256]). The block of probabilities the body leaves for its tokens
  (`blockProbs`) is therefore the restriction of ONE whole-array function, `routerProbsT` of the two argument arrays,
  to the point's block: entry (b, e, s) of the block is entry (b, e, 256 t + s) of the array, and both are the softmax
  at e of the logits of token (b, 256 t + s) — up to the order of the two factors in each product, which does not
  matter on the extended reals. Every index (b, e, S) of the array lies in the block of point S / 256, so the array
  ends holding that function.
-/
import proofs.«100818_g54193897341570_cont_sun_m_1179_19_alg».proof.Proof.BlockValue
import Idealize.ShloMosaic.Lib.Pipeline.Value

noncomputable section

namespace Cert.Router

open Idealize.ShloMosaic Idealize.ShloMosaic.ValueIdx Cert.Router.Block

/-- The expert-major array read at an index whose coordinates are known. -/
theorem routerProbsT_of_coords (X : Tokens.Idx → EReal) (W : Experts.Idx → EReal) (i : ProbsT.Idx)
    (b : Fin 4) (e : Fin 64) (S : Fin 4096) (h0 : (i 0).val = b.val) (h1 : (i 1).val = e.val) (h2 : (i 2).val = S.val) :
    routerProbsT X W i = prob X W b S e := by
  obtain rfl : i = ix3 b e S :=
    funext fun a => Fin.ext (by match a with | ⟨0, _⟩ => exact h0 | ⟨1, _⟩ => exact h1 | ⟨2, _⟩ => exact h2)
  rfl

/-- A block of tokens that is rows 256 T … 256 T + 255 of the token array, with the whole expert table, gives the
    array's probabilities for those tokens: the products commute. -/
theorem blockEntry_eq_prob (X : Tokens.Idx → EReal) (W : Experts.Idx → EReal)
    (x0 : Vec Ideal Cert.KernelIdeal.S4x256x4096 .f32) (x1 : Vec Ideal Cert.KernelIdeal.S64x4096 .f32) (T : Nat)
    (hx0 : ∀ (b : Fin 4) (s : Fin 256) (k : Fin 4096) (S : Fin 4096), S.val = T * 256 + s.val → x0 (ix3 b s k) = X (ix3 b S k))
    (hx1 : ∀ (e : Fin 64) (k : Fin 4096), x1 (ix2 e k) = W (ix2 e k))
    (b : Fin 4) (e : Fin 64) (s : Fin 256) (S : Fin 4096) (hS : S.val = T * 256 + s.val) :
    blockEntry x0 x1 b e s = prob X W b S e := by
  unfold blockEntry prob logit
  refine softmaxOf_congr (fun e' => Finset.sum_congr rfl fun k _ => ?_) e
  rw [hx0 b s k S hS, hx1 e' k, mul_comm]

end Cert.Router

namespace Cert.Router.Array

open Cert.KernelIdeal Cert.KernelIdeal.Gen Cert.Router Cert.Router.Block
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The windows' index maps over the grid: the token window moves along the sequence axis with the point, the expert
    window stays, the output window moves along its last axis with the point. -/
theorem idx_facts : ∀ t : Fin cfg0.N, win0_0.index t (0 : Fin 3) = 0 ∧ win0_0.index t (1 : Fin 3) = t.val
    ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val :=
  (by decide +kernel : ∀ t : Fin grid0.N, _)

/-- The token window's block at point t is rows 256 t … of the token array. -/
theorem tokens_blk (c : Dev nD) (t : Fin cfg0.N) (b : Fin 4) (s : Fin 256) (k : Fin 4096) (S : Fin 4096)
    (hS : S.val = t.val * 256 + s.val) : iblk m c 0 t (ix3 b s k) = V m c main_arg0 (ix3 b S k) := by
  obtain ⟨f0, f1, f2, -⟩ := idx_facts t
  show V m c main_arg0 (((cfg0.win 0).blk t).view.emb (ix3 b s k)) = V m c main_arg0 (ix3 b S k)
  refine congrArg (V m c main_arg0) (funext fun a => Fin.ext ?_)
  match a with
  | ⟨0, _⟩ => show win0_0.index t (0 : Fin 3) * 4 + 1 * b.val = b.val; omega
  | ⟨1, _⟩ => show win0_0.index t (1 : Fin 3) * 256 + 1 * s.val = S.val; omega
  | ⟨2, _⟩ => show win0_0.index t (2 : Fin 3) * 4096 + 1 * k.val = k.val; omega

/-- The expert window's block at every point is the whole expert table. -/
theorem experts_blk (c : Dev nD) (t : Fin cfg0.N) (e : Fin 64) (k : Fin 4096) :
    iblk m c 1 t (ix2 e k) = V m c main_arg1 (ix2 e k) := by
  obtain ⟨-, -, -, f0, f1, -⟩ := idx_facts t
  show V m c main_arg1 (((cfg0.win 1).blk t).view.emb (ix2 e k)) = V m c main_arg1 (ix2 e k)
  refine congrArg (V m c main_arg1) (funext fun a => Fin.ext ?_)
  match a with
  | ⟨0, _⟩ => show win0_1.index t (0 : Fin 2) * 64 + 1 * e.val = e.val; omega
  | ⟨1, _⟩ => show win0_1.index t (1 : Fin 2) * 4096 + 1 * k.val = k.val; omega

/-- WHAT POINT t WRITES BACK is block t of the expert-major probabilities of the argument arrays. -/
theorem flushed_eq (c : Dev nD) (t : Fin cfg0.N) :
    (dats m 0 c).flushed 2 t
      = ((cfg0.win 2).blk t).view.read (Elt Ideal) (routerProbsT (V m c main_arg0) (V m c main_arg1)) := by
  show (cfg0.win 2).cut (grid0.coords t) ((dats m 0 c).after 2 t) = _
  rw [after0_2]
  obtain ⟨-, -, -, -, -, g0, g1, g2⟩ := idx_facts t
  have hN : grid0.N = 16 := N_0
  have ht : t.val < grid0.N := t.isLt
  funext j
  have hj0 : (j 0).val < 4 := (j 0).isLt
  have hj1 : (j 1).val < 64 := (j 1).isLt
  have hj2 : (j 2).val < 256 := (j 2).isLt
  show out0_2 (F := Ideal) (iblk m c 0 t) (iblk m c 1 t) j
    = routerProbsT (V m c main_arg0) (V m c main_arg1) (((cfg0.win 2).blk t).view.emb j)
  refine (congrFun (out_eq (iblk m c 0 t) (iblk m c 1 t)) j).trans ?_
  refine (blockProbs_of_coords (iblk m c 0 t) (iblk m c 1 t) j ⟨(j 0).val, hj0⟩ ⟨(j 1).val, hj1⟩ ⟨(j 2).val, hj2⟩ rfl rfl rfl).trans ?_
  refine (blockEntry_eq_prob (V m c main_arg0) (V m c main_arg1) (iblk m c 0 t) (iblk m c 1 t) t.val
    (tokens_blk m c t) (experts_blk m c t) ⟨(j 0).val, hj0⟩ ⟨(j 1).val, hj1⟩ ⟨(j 2).val, hj2⟩
    ⟨t.val * 256 + (j 2).val, by omega⟩ rfl).trans ?_
  refine (routerProbsT_of_coords (V m c main_arg0) (V m c main_arg1) _ ⟨(j 0).val, hj0⟩ ⟨(j 1).val, hj1⟩
    ⟨t.val * 256 + (j 2).val, by omega⟩ ?_ ?_ ?_).symm
  · show win0_2.index t (0 : Fin 3) * 4 + 1 * (j 0).val = (j 0).val; omega
  · show win0_2.index t (1 : Fin 3) * 64 + 1 * (j 1).val = (j 1).val; omega
  · show win0_2.index t (2 : Fin 3) * 256 + 1 * (j 2).val = t.val * 256 + (j 2).val; omega

/-- An index of the output array is in point t's block iff each coordinate is in the block's range on its axis. -/
theorem mem_blk (t : Fin cfg0.N) (i : S4x64x4096.Idx) :
    i ∈ ((cfg0.win 2).blk t).view.set ↔ ∀ a : Fin 3, win0_2.index t a * S4x64x256.size a ≤ (i a).val
      ∧ (i a).val < win0_2.index t a * S4x64x256.size a + S4x64x256.size a := by
  show i ∈ ((View.whole main_call0_v0).slice (win0_2.rect t)).set ↔ _
  rw [View.set_slice_whole, Rect.mem_set_unit]
  exact Iff.rfl

/-- Every index (b, e, S) of the output array is in the block of point S / 256, which writes back. -/
theorem cover (i : S4x64x4096.Idx) :
    ∃ t : Fin cfg0.N, (cfg0.win 2).flush t = true ∧ i ∈ ((cfg0.win 2).blk t).view.set := by
  have h0 : (i 0).val < 4 := (i 0).isLt
  have h1 : (i 1).val < 64 := (i 1).isLt
  have h2 : (i 2).val < 4096 := (i 2).isLt
  have hN : grid0.N = 16 := N_0
  obtain ⟨t, ht⟩ : ∃ t : Fin cfg0.N, t.val = (i 2).val / 256 :=
    ⟨⟨(i 2).val / 256, by show (i 2).val / 256 < grid0.N; omega⟩, rfl⟩
  obtain ⟨-, -, -, -, -, g0, g1, g2⟩ := idx_facts t
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 64 ≤ (i 1).val ∧ (i 1).val < win0_2.index t (1 : Fin 3) * 64 + 64; omega
  | ⟨2, _⟩ => show win0_2.index t (2 : Fin 3) * 256 ≤ (i 2).val ∧ (i 2).val < win0_2.index t (2 : Fin 3) * 256 + 256; omega

/-- THE OUTPUT ARRAY after the pipeline: the router's probabilities of the argument arrays, expert-major. -/
theorem final (c : Dev nD) :
    (dats m 0 c).arrAt 2 cfg0.N
      = routerProbsT (m ((c : Thread nD τ).loc main_arg0)) (m ((c : Thread nD τ).loc main_arg1)) :=
  (dats m 0 c).arrAt_eq_of_cover 2 (routerProbsT (V m c main_arg0) (V m c main_arg1))
    (fun t _ => flushed_eq m c t) cover

end Cert.Router.Array

end
-- ==== Proof.TailValue.lean ====
/-
  The kernel program's result. After the pipeline the program transposes the expert-major output array [4, 64, 4096]
  to token-major [4, 4096, 64] — its one host operation after the region — and returns that. The output array holds the
  router's probabilities expert-major, entry (b, e, s); the transpose with permutation (0, 2, 1) reads, at (b, s, e), its
  operand at (b, e, s): the same probabilities token-major. The argument arrays are staged by input windows that
  never write back, and end as they were.
-/
import proofs.«100818_g54193897341570_cont_sun_m_1179_19_alg».proof.Proof.ArrayValue
import Idealize.ShloMosaic.Lib.StableHlo.Run
import Idealize.ShloMosaic.Lib.ValueLayout

noncomputable section

namespace Cert.Router.Kernel

open Cert.KernelIdeal Cert.KernelIdeal.Gen Cert.Router
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The expert-major probabilities transposed are the token-major ones. -/
theorem transposed (X : Tokens.Idx → EReal) (W : Experts.Idx → EReal) :
    transpose S4x4096x64 [0, 2, 1] (routerProbsT X W) transposes_S4x64x4096_S4x4096x64_0_2_1 = routerProbs X W := by
  funext i
  obtain ⟨b, s, e, rfl⟩ : ∃ (b : Fin 4) (s : Fin 4096) (e : Fin 64), i = ix3 b s e := ⟨i 0, i 1, i 2, eq_ix3 i⟩
  exact transpose_ix3_021_apply (routerProbsT X W) _ b s e

/-- The program's result buffer after the host line that follows the region. -/
theorem result_eq (c : Dev nD) :
    Pipeline.afterTail₀ cfgs (dats m) 0 (V0 m) [hostOps1] c main_v0
      = routerProbs (m ((c : Thread nD τ).loc main_arg0)) (m ((c : Thread nD τ).loc main_arg1)) := by
  unfold Pipeline.afterTail₀
  show StableHlo.after hostOps1 _ (Proc.devRef .tc main_v0) = _
  after_results
  show transpose S4x4096x64 [0, 2, 1]
      (Pipeline.withArrays spec0 c (V0 m c) (fun w => (dats m 0 c).arrAt w cfg0.N) (Proc.devRef .tc (Pipeline.arrRef spec0 2)))
      transposes_S4x64x4096_S4x4096x64_0_2_1 = _
  rw [Pipeline.withArrays_arr spec0 launch0.win.arr_inj c _ _ 2, Cert.Router.Array.final m c]
  exact transposed _ _

/-- THE KERNEL PROGRAM'S RUN: every weakly fair execution terminates with the result buffer at the router's
    probabilities of the argument arrays, token-major, and the arguments unchanged. -/
theorem run : θ_run defs (onTc (τ := τ) (main (F := Ideal))) ⟨m, fun _ => 0, ρ⟩ fun r => ∀ c : Dev nD,
      r.2.mem ((c : Thread nD τ).loc main_v0)
        = routerProbs (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v0 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Router.Kernel

end
-- ==== Proof.lean ====
/-
  A softmax router against its jnp reference, on the extended reals.

  Both programs take token vectors x : [4, 4096, 4096] (batch, sequence, hidden) and expert vectors
  w : [64, 4096] and return, for every token (b, s), the softmax over the 64 experts of the logits
  L[b, s, e] = Σ_k x[b, s, k] · w[e, k]:   exp (L[b, s, e] - M[b, s]) / Σ_e' exp (L[b, s, e'] - M[b, s]),   M the largest
  logit of the token, folded from -∞ (Proof/Spec.lean).

  The reference computes this token-major in fifteen host operations: an einsum, a maximum over the expert axis
  (compared once more with -∞, which changes nothing), a subtraction, an exponential, a sum over the expert axis from 0,
  and a quotient (Proof/RefIsSpec.lean, over the generated run and its read-at-an-index lemmas).

  The kernel runs a pipeline of sixteen points. Point t holds sequence positions 256 t … 256 t + 255 of all four batch
  slabs and the whole expert table; for each slab it multiplies the expert table with the slab's tokens on the matrix
  unit (logits expert-major, [64, 256]), takes the column maximum and the column sum down the expert axis, and stores the
  quotient as slab b of a [4, 64, 256] block (Proof/SlabValue.lean: one slab at an index; Proof/BlockValue.lean: the four
  stores are one function of the block). The blocks tile a [4, 64, 4096] array, expert-major
  (Proof/ArrayValue.lean), which the program transposes to [4, 4096, 64] on the host (Proof/TailValue.lean).

  The two results agree entry by entry: the same inner products with the factors in the other order (products
  commute on the extended reals), the same fold of max from -∞, the same exponential, the same sum (the reference's
  initial 0 adds nothing), the same quotient. No law used needs a finite operand, so the precondition is never opened.
  The kernel's idealization rewrote nothing, so `preserves` asks nothing; the kernels' frames are the generated ones,
  and the reference's frame is its generated run with the result dropped.
-/
import proofs.«100818_g54193897341570_cont_sun_m_1179_19_alg».proof.Defs
import proofs.«100818_g54193897341570_cont_sun_m_1179_19_alg».proof.Proof.Gen.Kernel
import proofs.«100818_g54193897341570_cont_sun_m_1179_19_alg».proof.Proof.Gen.Kernel.Skeleton
import proofs.«100818_g54193897341570_cont_sun_m_1179_19_alg».proof.Proof.Gen.Kernel.Launch
import proofs.«100818_g54193897341570_cont_sun_m_1179_19_alg».proof.Proof.Gen.Kernel.Points
import proofs.«100818_g54193897341570_cont_sun_m_1179_19_alg».proof.Proof.Gen.Kernel.Frame
import proofs.«100818_g54193897341570_cont_sun_m_1179_19_alg».proof.Proof.Gen.KernelIdeal
import proofs.«100818_g54193897341570_cont_sun_m_1179_19_alg».proof.Proof.Gen.KernelIdeal.Skeleton
import proofs.«100818_g54193897341570_cont_sun_m_1179_19_alg».proof.Proof.Gen.KernelIdeal.Launch
import proofs.«100818_g54193897341570_cont_sun_m_1179_19_alg».proof.Proof.Gen.KernelIdeal.Points
import proofs.«100818_g54193897341570_cont_sun_m_1179_19_alg».proof.Proof.Gen.KernelIdeal.Frame
import proofs.«100818_g54193897341570_cont_sun_m_1179_19_alg».proof.Proof.Gen.ReferenceIdeal
import proofs.«100818_g54193897341570_cont_sun_m_1179_19_alg».proof.Proof.Gen.ReferenceIdeal.Run
import proofs.«100818_g54193897341570_cont_sun_m_1179_19_alg».proof.Proof.Gen.ReferenceIdeal.Read
import proofs.«100818_g54193897341570_cont_sun_m_1179_19_alg».proof.Proof.Gen.Pre_finite_inputs
import proofs.«100818_g54193897341570_cont_sun_m_1179_19_alg».proof.Proof.RefIsSpec
import proofs.«100818_g54193897341570_cont_sun_m_1179_19_alg».proof.Proof.TailValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the router's probabilities of those
    arguments, token-major: the kernel by its pipeline and the final transpose, the reference operation by operation. -/
theorem algebraic : Cert.algebraic_KernelIdeal_ReferenceIdeal := by
  intro m ρ m' ρ' _ hagree
  refine ⟨fun c => Cert.Router.routerProbs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Router.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.Router.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
